-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x256 : Shape := ⟨2, ![128, 256]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128x256 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x256 : Shape := ⟨2, ![128, 256]⟩
abbrev S200x10000 : Shape := ⟨2, ![200, 10000]⟩
abbrev S400x128 : Shape := ⟨2, ![400, 128]⟩
abbrev S200x128 : Shape := ⟨2, ![200, 128]⟩

abbrev nBuf : Space → Nat
  | .hbm => 5
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x256, .f32⟩
  | .hbm, ⟨4, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S128x256, .f32⟩
  | .local _ .vmem, ⟨7, _⟩ => ⟨S400x128, .f32⟩
  | .local _ .vmem, ⟨8, _⟩ => ⟨S400x128, .f32⟩
  | .local _ .vmem, ⟨9, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v5 : BitVec 32 := Scalar.muli arg0 c400_i32
  let v6 : Index := Scalar.indexCast v5
  let c0_4 : Index := 0#32
  ![v6.toNat, 0]
def k0_off2 (i : grid0.Coords) : Fin 2 → Nat :=
  let arg0 : BitVec 32 := BitVec.ofNat 32 (i 0).val
  let c400_i32_5 : BitVec 32 := 400#32
  let v8 : BitVec 32 := Scalar.muli arg0 c400_i32_5
  let c200_i32 : BitVec 32 := 200#32
  let v9 : BitVec 32 := Scalar.addi v8 c200_i32
  let v10 : Index := Scalar.indexCast v9
  let c0_6 : Index := 0#32
  ![v10.toNat, 0]
def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S128x256_S128x256_0_0 : ∀ a, (![0, 0] : Fin 2 → Nat) a + S128x256.size a ≤ S128x256.size a
  h_S128x256 : 0 < S128x256.numel
  h_S200x128 : 0 < S200x128.numel
  inb_S200x10000_S200x10000_0_0 : ∀ a, (![0, 0] : Fin 2 → Nat) a + S200x10000.size a ≤ S200x10000.size a
  h_S200x10000 : 0 < S200x10000.numel
  slices_S128x256_o0_0_S128x128 : S128x256.Slices ![0, 0] S128x128
  slices_S128x256_o0_128_S128x128 : S128x256.Slices ![0, 128] S128x128
  inb_S400x128_S200x128_0_0 : ∀ a, (![0, 0] : Fin 2 → Nat) a + S200x128.size a ≤ S400x128.size a
  inb_S400x128_S200x128_200_0 : ∀ a, (![200, 0] : Fin 2 → Nat) a + S200x128.size a ≤ S400x128.size a
  dot_S10000x128_S128x128_S10000x128_1_1_0_0_n_n_wf : DotDims.WF S10000x128 S128x128 S10000x128 [1] [1] [0] [0] [] []
  dot_S200x10000_S10000x128_S200x128_1_0_0_1_n_n_wf : DotDims.WF S200x10000 S10000x128 S200x128 [1] [0] [0] [1] [] []
  dot_S200x128_S128x128_S200x128_1_1_0_0_n_n_wf : DotDims.WF S200x128 S128x128 S200x128 [1] [1] [0] [0] [] []
  hrank0 : 0 < grid0.rank
  k0_off1_inb : ∀ i : grid0.Coords, ∀ a, (k0_off1 i) a + S200x128.size a ≤ S10000x128.size a
  k0_off2_inb : ∀ i : grid0.Coords, ∀ a, (k0_off2 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_1_0_0_n_n : DotDims S200x128 S128x128 S200x128 where
  lhsContracting := [1]
  rhsContracting := [1]
  lhsNonContracting := [0]
  rhsNonContracting := [0]
  lhsBatch := []
  rhsBatch := []
  wf := dot_S200x128_S128x128_S200x128_1_1_0_0_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x256 : Shape := ⟨2, ![128, 256]⟩
abbrev S10000x256 : Shape := ⟨2, ![10000, 256]⟩
abbrev S256x128 : Shape := ⟨2, ![256, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x256, .f32⟩
  | .hbm, ⟨4, _⟩ => ⟨S128x128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S10000x256, .f32⟩
  | .hbm, ⟨10, _⟩ => ⟨S256x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .i1⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  transposes_S128x128_S128x128_1_0 : S128x128.Transposes [1, 0] S128x128
  concatenates_S10000x128_S10000x128_S10000x256_d1 : Shape.Concatenates [S10000x128, S10000x128] S10000x256 1
  transposes_S128x256_S256x128_1_0 : S128x256.Transposes [1, 0] S256x128
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.KbShared.lean ====
/-
  The setting of the frame of the graph-layer kernel: one pallas_call over 25 row blocks of the adjacency
  matrix. The arrays as the region finds them, each window's block at a grid point, the one branch of the
  body (taken at the first point only, where the projection input · W1ᵀ is computed into the scratch), and
  the fact that every input window's staging buffer holds that window's block at every point.
-/
import proofs.«102523_g18270790877214_cont_8to1_805_7_alg».proof.Proof.Gen.Kernel.Launch
import proofs.«102523_g18270790877214_cont_8to1_805_7_alg».proof.Proof.Gen.Kernel.Skeleton
import proofs.«102523_g18270790877214_cont_8to1_805_7_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- Core `c`'s buffer contents when the region is entered: @main is the region alone, so they are the launch contents. -/
abbrev V (c : Dev nD) (b : Ref sig .tc) : Buf (Elt F) ((c : Thread nD τ).loc b) := m ((c : Thread nD τ).loc b)

/-- @main reduces to the region holding the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun _ => rfl)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched the block index has not moved. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched the block index has not moved. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched the block index has not moved. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not
    fetched the block index has not moved. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is not
    fetched the block index has not moved. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one `scf.if`: the grid coordinate is zero. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

/-! ## The staging memrefs and the scratch -/

abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x128 .f32 := win0_5.stage (cfg0.slots t 5)
abbrev hs5 (t : Fin cfg0.N) : (ms5 t).IsWhole := hstage0_5 ((cfg0.slots t 5).cast nbuf0_5)
/-- The scratch operand: a whole scoped buffer of the kernel's own, which holds the projection from the first point on. -/
abbrev scM : Memref sig .tc .vmem S10000x128 .f32 := Memref.whole cc0_scratch0
/-- One staging buffer of the output window, and the scratch, as views: contents are stated through them. -/
abbrev VO : View sig .tc .vmem S400x128 .f32 := (Memref.whole cc0_stg5_0 : Memref sig .tc .vmem S400x128 .f32).view
abbrev VS : View sig .tc .vmem S10000x128 .f32 := scM.view

/-- The region invariant before the first point: the scratch at some contents and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.KbRunA.lean ====
/-
  The body run as a whole in case A of its one branch (the first grid point: the projection is computed and stored into the scratch, then read back).
  On whole staging memrefs, the five inputs at named contents, the output buffer at anything and the scratch at anything,
  the body runs to its end holding the inputs as they were, the output buffer with its two half-block stores written and the scratch with its one whole store written.
  The stores are recorded as lists of pieces (last first).
-/
import proofs.«102523_g18270790877214_cont_8to1_805_7_alg».proof.Proof.KbShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : cond0 i)
    (x0 : Vec F S200x10000 .f32) (x1 : Vec F S200x10000 .f32) (x2 : Vec F S10000x128 .f32) (x3 : Vec F S128x128 .f32) (x4 : Vec F S128x256 .f32) :
    Σ' (L5 : List (View.Piece (Elt F) S400x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, ?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Cert.Kernel.Hand

end
-- ==== Proof.KbRunB.lean ====
/-
  The body run as a whole in case B of its one branch (every later grid point: the scratch is only read, at the contents the first point left).
  On whole staging memrefs, the five inputs at named contents, the output buffer at anything, the scratch at named contents,
  the body runs to its end holding the inputs as they were, the output buffer with its two half-block stores written and the scratch as it was.
  The stores are recorded as lists of pieces (last first).
-/
import proofs.«102523_g18270790877214_cont_8to1_805_7_alg».proof.Proof.KbRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunB (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : ¬cond0 i)
    (x0 : Vec F S200x10000 .f32) (x1 : Vec F S200x10000 .f32) (x2 : Vec F S10000x128 .f32) (x3 : Vec F S128x128 .f32) (x4 : Vec F S128x256 .f32) (xs : Vec F S10000x128 .f32) :
    { L5 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS

end Cert.Kernel.Hand

end
-- ==== Proof.KbBody.lean ====
/-
  The frame of the graph-layer kernel, and what its result array holds.

  The grid has 25 points; point t reads rows 400t … 400t+399 of the adjacency matrix through two windows of
  200 rows each (both windows are on the one adjacency array, which is therefore held half and half), the whole
  of input, W1 and W2 through three windows fetched once, and writes rows 400t … 400t+399 of the result.
  At the first point the body computes the projection input · W1ᵀ into a scratch buffer; every later point
  reads it from there. So the invariant carried from point to point is: before the first point the scratch
  holds anything, afterwards it holds what the first point stored. What each point leaves in the output's
  staging buffer is the read-back of its two half-block stores.
-/
import proofs.«102523_g18270790877214_cont_8to1_805_7_alg».proof.Proof.KbRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's two half-block stores tile the output's staging buffer. -/
theorem coverA5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : cond0 i) (x0 : Vec F S200x10000 .f32) (x1 : Vec F S200x10000 .f32) (x2 : Vec F S10000x128 .f32) (x3 : Vec F S128x128 .f32) (x4 : Vec F S128x256 .f32) (y : S400x128.Idx) :
    ∃ pc ∈ (kernelRunA c i arg1 harg1 arg2 harg2 arg3 harg3 arg4 harg4 arg5 harg5 arg6 harg6 arg7 harg7 hc0 x0 x1 x2 x3 x4).1, y ∈ pc.1.set :=
  View.cover_of_tiledL (kernelRunA c i arg1 harg1 arg2 harg2 arg3 harg3 arg4 harg4 arg5 harg5 arg6 harg6 arg7 harg7 hc0 x0 x1 x2 x3 x4).1 S200x128.size (by sl_kernel_rfl) y

/-- The first point's one store covers the scratch. -/
theorem coverAS (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : cond0 i) (x0 : Vec F S200x10000 .f32) (x1 : Vec F S200x10000 .f32) (x2 : Vec F S10000x128 .f32) (x3 : Vec F S128x128 .f32) (x4 : Vec F S128x256 .f32) (y : S10000x128.Idx) :
    ∃ pc ∈ (kernelRunA c i arg1 harg1 arg2 harg2 arg3 harg3 arg4 harg4 arg5 harg5 arg6 harg6 arg7 harg7 hc0 x0 x1 x2 x3 x4).2.1, y ∈ pc.1.set :=
  View.cover_of_tiledL (kernelRunA c i arg1 harg1 arg2 harg2 arg3 harg3 arg4 harg4 arg5 harg5 arg6 harg6 arg7 harg7 hc0 x0 x1 x2 x3 x4).2.1 S10000x128.size (by sl_kernel_rfl) y

/-- A later point's two half-block stores tile the output's staging buffer. -/
theorem coverB5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : ¬cond0 i) (x0 : Vec F S200x10000 .f32) (x1 : Vec F S200x10000 .f32) (x2 : Vec F S10000x128 .f32) (x3 : Vec F S128x128 .f32) (x4 : Vec F S128x256 .f32) (xs : Vec F S10000x128 .f32) (y : S400x128.Idx) :
    ∃ pc ∈ (kernelRunB c i arg1 harg1 arg2 harg2 arg3 harg3 arg4 harg4 arg5 harg5 arg6 harg6 arg7 harg7 hc0 x0 x1 x2 x3 x4 xs).1, y ∈ pc.1.set :=
  View.cover_of_tiledL (kernelRunB c i arg1 harg1 arg2 harg2 arg3 harg3 arg4 harg4 arg5 harg5 arg6 harg6 arg7 harg7 hc0 x0 x1 x2 x3 x4 xs).1 S200x128.size (by sl_kernel_rfl) y

/-- What the first point leaves in the output's staging buffer: its stores read back. -/
def outA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : cond0 i) (x0 : Vec F S200x10000 .f32) (x1 : Vec F S200x10000 .f32) (x2 : Vec F S10000x128 .f32) (x3 : Vec F S128x128 .f32) (x4 : Vec F S128x256 .f32) : Vec F S400x128 .f32 :=
  VO.read (Elt F) (VO.writes (Elt F) VO.junk (kernelRunA c i arg1 harg1 arg2 harg2 arg3 harg3 arg4 harg4 arg5 harg5 arg6 harg6 arg7 harg7 hc0 x0 x1 x2 x3 x4).1)

/-- What the first point leaves in the scratch: its store read back. -/
def soutA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : cond0 i) (x0 : Vec F S200x10000 .f32) (x1 : Vec F S200x10000 .f32) (x2 : Vec F S10000x128 .f32) (x3 : Vec F S128x128 .f32) (x4 : Vec F S128x256 .f32) : Vec F S10000x128 .f32 :=
  VS.read (Elt F) (VS.writes (Elt F) VS.junk (kernelRunA c i arg1 harg1 arg2 harg2 arg3 harg3 arg4 harg4 arg5 harg5 arg6 harg6 arg7 harg7 hc0 x0 x1 x2 x3 x4).2.1)

/-- What a later point leaves in the output's staging buffer, the scratch holding `xs`. -/
def outB (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : ¬cond0 i) (x0 : Vec F S200x10000 .f32) (x1 : Vec F S200x10000 .f32) (x2 : Vec F S10000x128 .f32) (x3 : Vec F S128x128 .f32) (x4 : Vec F S128x256 .f32) (xs : Vec F S10000x128 .f32) : Vec F S400x128 .f32 :=
  VO.read (Elt F) (VO.writes (Elt F) VO.junk (kernelRunB c i arg1 harg1 arg2 harg2 arg3 harg3 arg4 harg4 arg5 harg5 arg6 harg6 arg7 harg7 hc0 x0 x1 x2 x3 x4 xs).1)

/-! ## Point by point -/

/-- The first grid point. -/
abbrev t₀ : Fin cfg0.N := ⟨0, by decide⟩

/-- What the scratch holds from the first point on: what that point stored, from its input blocks. -/
def proj (c : Dev nD) : Vec F S10000x128 .f32 :=
  soutA c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) ((hcond0 t₀).mpr rfl) (iblk m c 0 t₀) (iblk m c 1 t₀) (iblk m c 2 t₀) (iblk m c 3 t₀) (iblk m c 4 t₀)

/-- What the output's staging buffer holds after the body at point `t`. -/
def outsAt (c : Dev nD) (t : Fin cfg0.N) : Vec F S400x128 .f32 :=
  if h : t.val = 0 then
    outA c (grid0.coords t) (ms0 t) (hs0 t) (ms1 t) (hs1 t) (ms2 t) (hs2 t) (ms3 t) (hs3 t) (ms4 t) (hs4 t) (ms5 t) (hs5 t) scM (Memref.isWhole_whole _) ((hcond0 t).mpr h) (iblk m c 0 t) (iblk m c 1 t) (iblk m c 2 t) (iblk m c 3 t) (iblk m c 4 t)
  else
    outB c (grid0.coords t) (ms0 t) (hs0 t) (ms1 t) (hs1 t) (ms2 t) (hs2 t) (ms3 t) (hs3 t) (ms4 t) (hs4 t) (ms5 t) (hs5 t) scM (Memref.isWhole_whole _) (fun hc => h ((hcond0 t).mp hc)) (iblk m c 0 t) (iblk m c 1 t) (iblk m c 2 t) (iblk m c 3 t) (iblk m c 4 t) (proj m c)

theorem outsAt_A (c : Dev nD) (t : Fin cfg0.N) (h : t.val = 0) :
    outsAt m c t = outA c (grid0.coords t) (ms0 t) (hs0 t) (ms1 t) (hs1 t) (ms2 t) (hs2 t) (ms3 t) (hs3 t) (ms4 t) (hs4 t) (ms5 t) (hs5 t) scM (Memref.isWhole_whole _) ((hcond0 t).mpr h) (iblk m c 0 t) (iblk m c 1 t) (iblk m c 2 t) (iblk m c 3 t) (iblk m c 4 t) := dif_pos h

theorem outsAt_B (c : Dev nD) (t : Fin cfg0.N) (h : ¬t.val = 0) :
    outsAt m c t = outB c (grid0.coords t) (ms0 t) (hs0 t) (ms1 t) (hs1 t) (ms2 t) (hs2 t) (ms3 t) (hs3 t) (ms4 t) (hs4 t) (ms5 t) (hs5 t) scM (Memref.isWhole_whole _) (fun hc => h ((hcond0 t).mp hc)) (iblk m c 0 t) (iblk m c 1 t) (iblk m c 2 t) (iblk m c 3 t) (iblk m c 4 t) (proj m c) := dif_neg h

/-- The invariant before position `n`: before the first point the scratch at anything; afterwards at the projection. -/
def PhiS (c : Dev nD) : ℕ → sProp 𝕄
  | 0 => iprop(∃ d, owns (c : Thread nD τ) scM fullShare d)
  | _ + 1 => owns (c : Thread nD τ) scM fullShare (proj m c)

theorem PhiS_zero (c : Dev nD) (n : ℕ) (hz : n = 0) : PhiS m c n = iprop(∃ d, owns (c : Thread nD τ) scM fullShare d) := by
  subst hz; rfl
theorem PhiS_succ (c : Dev nD) (n : ℕ) : PhiS m c (n + 1) = owns (c : Thread nD τ) scM fullShare (proj m c) := rfl
theorem PhiS_pos (c : Dev nD) (n : ℕ) (hz : n ≠ 0) : PhiS m c n = owns (c : Thread nD τ) scM fullShare (proj m c) := by
  cases n with
  | zero => exact absurd rfl hz
  | succ n => rfl

/-! ## The proof data -/

/-- The proof data on core `c`: the arrays as the region finds them; after the body each input's buffer at its
    block and the output's at `outsAt`; the invariant `PhiS`; the adjacency array held half by each of its two
    windows, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outsAt m c t := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. Every input's memref holds its block; at the first point the scratch holds anything and
    the body leaves the projection in it, at a later point it holds the projection and is handed back as it was;
    the output's buffer is taken at anything and left at the read-back of the point's two stores. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  rw [show (dats m 0 c).leavesExact 5 t = owns (c : Thread nD τ) (ms5 t) fullShare ((dats m 0 c).after 5 t) from rfl, after5]
  by_cases hz : t.val = 0
  · obtain rfl : t = t₀ := Fin.ext hz
    rw [outsAt_A m c t₀ hz]
    unfold outA
    rw [PhiS_castSucc m c t₀, PhiS_zero m c _ hz]
    iintro ⟨HS, Ho, ⟨%d0, H0⟩, ⟨%d1, H1⟩, ⟨%d2, H2⟩, ⟨%d3, H3⟩, ⟨%d4, H4⟩, ⟨%d5, H5⟩⟩
    iapply ((kernelRunA c (grid0.coords t₀) _ _ _ _ _ _ _ _ _ _ _ _ _ _ ((hcond0 t₀).mpr hz) (iblk m c 0 t₀) (iblk m c 1 t₀) (iblk m c 2 t₀) (iblk m c 3 t₀) (iblk m c 4 t₀)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS]
    · unfold owns proj soutA; iexists _; isplitr
      swap; · iexact HS
      ipureintro; exact View.read_writes_of_cover _ _ _ _ _ (coverAS c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA5 c _ _ _ _ _ _ _ _ _ _ _ _ _ _ _ _ _ _ _ _ _)
  · rw [outsAt_B m c t hz]
    unfold outB
    rw [PhiS_castSucc m c t, PhiS_pos m c _ hz]
    iintro ⟨HS, Ho, ⟨%d0, H0⟩, ⟨%d1, H1⟩, ⟨%d2, H2⟩, ⟨%d3, H3⟩, ⟨%d4, H4⟩, ⟨%d5, H5⟩⟩
    iapply ((kernelRunB c (grid0.coords t) _ _ _ _ _ _ _ _ _ _ _ _ _ _ (fun hc => hz ((hcond0 t).mp hc)) (iblk m c 0 t) (iblk m c 1 t) (iblk m c 2 t) (iblk m c 3 t) (iblk m c 4 t) (proj m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB5 c _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KbLaunch.lean ====
/-
  The launch of the graph-layer kernel: from the body obligation to the run of @main.

  The adjacency array is read through two windows. Its buffer, whole at the launch contents, is dealt to them
  half and half; every other array goes whole to its one window. The scratch enters the invariant at anything and
  leaves it at the projection, which is then forgotten. The run ends with every window's array at what the
  write-backs made of it: the four argument arrays, which are only read, at their launch contents.
-/
import proofs.«102523_g18270790877214_cont_8to1_805_7_alg».proof.Proof.KbBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window's array is a whole buffer: its element set is all of it. -/
theorem arr_set (w : Fin 6) : (cfg0.win w).arr.view.set = Finset.univ := (arr_whole0 w).set_eq_univ

/-- The distinct buffers behind the six windows' arrays are five: the adjacency array serves two windows. -/
theorem bigSep_arrs {M : Type} [URA M] (Φ : Ref sig .tc → sProp M) :
    bigSep (Finset.univ.image (Pipeline.arrRef spec0)) Φ
      = iprop(Φ main_arg1 ∗ Φ main_arg0 ∗ Φ main_arg2 ∗ Φ main_arg3 ∗ Φ main_v0) :=
  bigSep_eq_bigSepL_of_eq [main_arg1, main_arg0, main_arg2, main_arg3, main_v0] (by decide) (by decide) Φ

/-- The buffers behind the windows' arrays, whole at the launch contents, are the windows' arrays at the shares the
    proof data name: the adjacency array's full share is its left and right halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, bigSep_arrs]
  simp only [arr_set, View.set_whole]
  show (iprop((((c.tc : Thread nD τ).loc main_arg1) ↦{fullShare} V m c main_arg1) ∗ (((c.tc : Thread nD τ).loc main_arg0) ↦{fullShare} V m c main_arg0) ∗ (((c.tc : Thread nD τ).loc main_arg2) ↦{fullShare} V m c main_arg2) ∗ (((c.tc : Thread nD τ).loc main_arg3) ↦{fullShare} V m c main_arg3) ∗ (((c.tc : Thread nD τ).loc main_v0) ↦{fullShare} V m c main_v0)) : sProp 𝕄)
    ⊢ iprop((((c.tc : Thread nD τ).loc main_arg1) ↦{fullShare.left} V m c main_arg1) ∗ (((c.tc : Thread nD τ).loc main_arg1) ↦{fullShare.right} V m c main_arg1) ∗ (((c.tc : Thread nD τ).loc main_arg0) ↦{fullShare} V m c main_arg0) ∗ (((c.tc : Thread nD τ).loc main_arg2) ↦{fullShare} V m c main_arg2) ∗ (((c.tc : Thread nD τ).loc main_arg3) ↦{fullShare} V m c main_arg3) ∗ (((c.tc : Thread nD τ).loc main_v0) ↦{fullShare} V m c main_v0))
  iintro ⟨H1, H0, H2, H3, Hv⟩
  ihave H1' := (pointsTo_share (PosShare.mem_left_op_right fullShare)).1 $$ H1
  icases H1' with ⟨Ha, Hb⟩
  isplitl [Ha]; · iexact Ha
  isplitl [Hb]; · iexact Hb
  isplitl [H0]; · iexact H0
  isplitl [H2]; · iexact H2
  isplitl [H3]; · iexact H3
  iexact Hv

/-- What the launch hands the region — the scratch at anything — is the invariant before the first point. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 from rfl, PhiS_zero m c 0 rfl, scopedRest0_eq]
  simp only [scM, owns_whole]
  iintro ⟨-, H⟩; iexact H

/-- After the last point the invariant gives the scratch back, its contents forgotten. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val from rfl,
    PhiS_pos m c _ (by rw [Fin.val_last]; have : cfg0.N = 25 := N_0; omega), scopedRest0_eq]
  simp only [scM, owns_whole]
  iintro H; isplitr; · iempintro
  iexists _; iexact H

set_option backward.isDefEq.respectTransparency.types false in
/-- From any memory with zero counters every weakly fair execution of @main terminates, nothing faulting, and every
    window's array ends at what the write-backs made of it. -/
theorem run_main : θ_run defs (onTc (τ := τ) (main (F := F))) ⟨m, fun _ => 0, ρ⟩
    (fun r => ∀ c : Dev nD, ∀ w : Fin cfg0.W,
      r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := _) (hu₀ := .rfl)
    (V := V m) (hmain := hmain m Variants.none) (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by
      iintro H; isplitr; · iempintro
      iexact H)
    (hin := hin m) (hout := hout m)
    (QY := fun _ _ => True)
    (hY := fun c s' => by
      iintro ⟨-, -, HSI⟩; imodintro; isplitr; · ipureintro; trivial
      iexact HSI)
    (hQ := fun s h c w => (h c).1 w)

/-- The four argument arrays end as they began: each is an input window's array, never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c 2).trans (((dats m 0 c).arrAt_in 2 rfl _).trans (A_eq m c 2)),
     (h c 0).trans (((dats m 0 c).arrAt_in 0 rfl _).trans (A_eq m c 0)),
     (h c 3).trans (((dats m 0 c).arrAt_in 3 rfl _).trans (A_eq m c 3)),
     (h c 4).trans (((dats m 0 c).arrAt_in 4 rfl _).trans (A_eq m c 4))⟩) (run_main m ρ)

end Cert.Kernel.Hand

end
-- ==== Proof.KiShared.lean ====
/-
  The setting of the frame of the graph-layer kernel: one pallas_call over 25 row blocks of the adjacency
  matrix. The arrays as the region finds them, each window's block at a grid point, the one branch of the
  body (taken at the first point only, where the projection input · W1ᵀ is computed into the scratch), and
  the fact that every input window's staging buffer holds that window's block at every point.
-/
import proofs.«102523_g18270790877214_cont_8to1_805_7_alg».proof.Proof.Gen.KernelIdeal.Launch
import proofs.«102523_g18270790877214_cont_8to1_805_7_alg».proof.Proof.Gen.KernelIdeal.Skeleton
import proofs.«102523_g18270790877214_cont_8to1_805_7_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry -/

/-- Core `c`'s buffer contents when the region is entered: @main is the region alone, so they are the launch contents. -/
abbrev V (c : Dev nD) (b : Ref sig .tc) : Buf (Elt F) ((c : Thread nD τ).loc b) := m ((c : Thread nD τ).loc b)

/-- @main reduces to the region holding the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun _ => rfl)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched the block index has not moved. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is not
    fetched the block index has not moved. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is not
    fetched the block index has not moved. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is not
    fetched the block index has not moved. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is not
    fetched the block index has not moved. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one `scf.if`: the grid coordinate is zero. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val = 0 :=
  (by decide +kernel : ∀ t : Fin grid0.N, cond0 (grid0.coords t) ↔ t.val = 0)

/-! ## The staging memrefs and the scratch -/

abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x128 .f32 := win0_5.stage (cfg0.slots t 5)
abbrev hs5 (t : Fin cfg0.N) : (ms5 t).IsWhole := hstage0_5 ((cfg0.slots t 5).cast nbuf0_5)
/-- The scratch operand: a whole scoped buffer of the kernel's own, which holds the projection from the first point on. -/
abbrev scM : Memref sig .tc .vmem S10000x128 .f32 := Memref.whole cc0_scratch0
/-- One staging buffer of the output window, and the scratch, as views: contents are stated through them. -/
abbrev VO : View sig .tc .vmem S400x128 .f32 := (Memref.whole cc0_stg5_0 : Memref sig .tc .vmem S400x128 .f32).view
abbrev VS : View sig .tc .vmem S10000x128 .f32 := scM.view

/-- The region invariant before the first point: the scratch at some contents and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KiRunA.lean ====
/-
  The body run as a whole in case A of its one branch (the first grid point: the projection is computed and stored into the scratch, then read back).
  On whole staging memrefs, the five inputs at named contents, the output buffer at anything and the scratch at anything,
  the body runs to its end holding the inputs as they were, the output buffer with its two half-block stores written and the scratch with its one whole store written.
  The stores are recorded as lists of pieces (last first).
-/
import proofs.«102523_g18270790877214_cont_8to1_805_7_alg».proof.Proof.KiShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : cond0 i)
    (x0 : Vec F S200x10000 .f32) (x1 : Vec F S200x10000 .f32) (x2 : Vec F S10000x128 .f32) (x3 : Vec F S128x128 .f32) (x4 : Vec F S128x256 .f32) :
    Σ' (L5 : List (View.Piece (Elt F) S400x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, ?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Cert.KernelIdeal.Hand

end
-- ==== Proof.KiRunB.lean ====
/-
  The body run as a whole in case B of its one branch (every later grid point: the scratch is only read, at the contents the first point left).
  On whole staging memrefs, the five inputs at named contents, the output buffer at anything, the scratch at named contents,
  the body runs to its end holding the inputs as they were, the output buffer with its two half-block stores written and the scratch as it was.
  The stores are recorded as lists of pieces (last first).
-/
import proofs.«102523_g18270790877214_cont_8to1_805_7_alg».proof.Proof.KiRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunB (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : ¬cond0 i)
    (x0 : Vec F S200x10000 .f32) (x1 : Vec F S200x10000 .f32) (x2 : Vec F S10000x128 .f32) (x3 : Vec F S128x128 .f32) (x4 : Vec F S128x256 .f32) (xs : Vec F S10000x128 .f32) :
    { L5 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs) -∗ K ⟨⟩))
          ⊢ wp frame (wpE (defs₀ (F := F)) Variants.none c none) E (cc0__body i arg1 harg1 arg2 harg2 arg3 harg3 arg4 harg4 arg5 harg5 arg6 harg6 arg7 harg7) K } := by
  refine ⟨?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS

end Cert.KernelIdeal.Hand

end
-- ==== Proof.KiBody.lean ====
/-
  The frame of the graph-layer kernel, and what its result array holds.

  The grid has 25 points; point t reads rows 400t … 400t+399 of the adjacency matrix through two windows of
  200 rows each (both windows are on the one adjacency array, which is therefore held half and half), the whole
  of input, W1 and W2 through three windows fetched once, and writes rows 400t … 400t+399 of the result.
  At the first point the body computes the projection input · W1ᵀ into a scratch buffer; every later point
  reads it from there. So the invariant carried from point to point is: before the first point the scratch
  holds anything, afterwards it holds what the first point stored. What each point leaves in the output's
  staging buffer is the read-back of its two half-block stores.
-/
import proofs.«102523_g18270790877214_cont_8to1_805_7_alg».proof.Proof.KiRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's two half-block stores tile the output's staging buffer. -/
theorem coverA5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : cond0 i) (x0 : Vec F S200x10000 .f32) (x1 : Vec F S200x10000 .f32) (x2 : Vec F S10000x128 .f32) (x3 : Vec F S128x128 .f32) (x4 : Vec F S128x256 .f32) (y : S400x128.Idx) :
    ∃ pc ∈ (kernelRunA c i arg1 harg1 arg2 harg2 arg3 harg3 arg4 harg4 arg5 harg5 arg6 harg6 arg7 harg7 hc0 x0 x1 x2 x3 x4).1, y ∈ pc.1.set :=
  View.cover_of_tiledL (kernelRunA c i arg1 harg1 arg2 harg2 arg3 harg3 arg4 harg4 arg5 harg5 arg6 harg6 arg7 harg7 hc0 x0 x1 x2 x3 x4).1 S200x128.size (by sl_kernel_rfl) y

/-- The first point's one store covers the scratch. -/
theorem coverAS (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : cond0 i) (x0 : Vec F S200x10000 .f32) (x1 : Vec F S200x10000 .f32) (x2 : Vec F S10000x128 .f32) (x3 : Vec F S128x128 .f32) (x4 : Vec F S128x256 .f32) (y : S10000x128.Idx) :
    ∃ pc ∈ (kernelRunA c i arg1 harg1 arg2 harg2 arg3 harg3 arg4 harg4 arg5 harg5 arg6 harg6 arg7 harg7 hc0 x0 x1 x2 x3 x4).2.1, y ∈ pc.1.set :=
  View.cover_of_tiledL (kernelRunA c i arg1 harg1 arg2 harg2 arg3 harg3 arg4 harg4 arg5 harg5 arg6 harg6 arg7 harg7 hc0 x0 x1 x2 x3 x4).2.1 S10000x128.size (by sl_kernel_rfl) y

/-- A later point's two half-block stores tile the output's staging buffer. -/
theorem coverB5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : ¬cond0 i) (x0 : Vec F S200x10000 .f32) (x1 : Vec F S200x10000 .f32) (x2 : Vec F S10000x128 .f32) (x3 : Vec F S128x128 .f32) (x4 : Vec F S128x256 .f32) (xs : Vec F S10000x128 .f32) (y : S400x128.Idx) :
    ∃ pc ∈ (kernelRunB c i arg1 harg1 arg2 harg2 arg3 harg3 arg4 harg4 arg5 harg5 arg6 harg6 arg7 harg7 hc0 x0 x1 x2 x3 x4 xs).1, y ∈ pc.1.set :=
  View.cover_of_tiledL (kernelRunB c i arg1 harg1 arg2 harg2 arg3 harg3 arg4 harg4 arg5 harg5 arg6 harg6 arg7 harg7 hc0 x0 x1 x2 x3 x4 xs).1 S200x128.size (by sl_kernel_rfl) y

/-- What the first point leaves in the output's staging buffer: its stores read back. -/
def outA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : cond0 i) (x0 : Vec F S200x10000 .f32) (x1 : Vec F S200x10000 .f32) (x2 : Vec F S10000x128 .f32) (x3 : Vec F S128x128 .f32) (x4 : Vec F S128x256 .f32) : Vec F S400x128 .f32 :=
  VO.read (Elt F) (VO.writes (Elt F) VO.junk (kernelRunA c i arg1 harg1 arg2 harg2 arg3 harg3 arg4 harg4 arg5 harg5 arg6 harg6 arg7 harg7 hc0 x0 x1 x2 x3 x4).1)

/-- What the first point leaves in the scratch: its store read back. -/
def soutA (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : cond0 i) (x0 : Vec F S200x10000 .f32) (x1 : Vec F S200x10000 .f32) (x2 : Vec F S10000x128 .f32) (x3 : Vec F S128x128 .f32) (x4 : Vec F S128x256 .f32) : Vec F S10000x128 .f32 :=
  VS.read (Elt F) (VS.writes (Elt F) VS.junk (kernelRunA c i arg1 harg1 arg2 harg2 arg3 harg3 arg4 harg4 arg5 harg5 arg6 harg6 arg7 harg7 hc0 x0 x1 x2 x3 x4).2.1)

/-- What a later point leaves in the output's staging buffer, the scratch holding `xs`. -/
def outB (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : ¬cond0 i) (x0 : Vec F S200x10000 .f32) (x1 : Vec F S200x10000 .f32) (x2 : Vec F S10000x128 .f32) (x3 : Vec F S128x128 .f32) (x4 : Vec F S128x256 .f32) (xs : Vec F S10000x128 .f32) : Vec F S400x128 .f32 :=
  VO.read (Elt F) (VO.writes (Elt F) VO.junk (kernelRunB c i arg1 harg1 arg2 harg2 arg3 harg3 arg4 harg4 arg5 harg5 arg6 harg6 arg7 harg7 hc0 x0 x1 x2 x3 x4 xs).1)

/-! ## Point by point -/

/-- The first grid point. -/
abbrev t₀ : Fin cfg0.N := ⟨0, by decide⟩

/-- What the scratch holds from the first point on: what that point stored, from its input blocks. -/
def proj (c : Dev nD) : Vec F S10000x128 .f32 :=
  soutA c (grid0.coords t₀) (ms0 t₀) (hs0 t₀) (ms1 t₀) (hs1 t₀) (ms2 t₀) (hs2 t₀) (ms3 t₀) (hs3 t₀) (ms4 t₀) (hs4 t₀) (ms5 t₀) (hs5 t₀) scM (Memref.isWhole_whole _) ((hcond0 t₀).mpr rfl) (iblk m c 0 t₀) (iblk m c 1 t₀) (iblk m c 2 t₀) (iblk m c 3 t₀) (iblk m c 4 t₀)

/-- What the output's staging buffer holds after the body at point `t`. -/
def outsAt (c : Dev nD) (t : Fin cfg0.N) : Vec F S400x128 .f32 :=
  if h : t.val = 0 then
    outA c (grid0.coords t) (ms0 t) (hs0 t) (ms1 t) (hs1 t) (ms2 t) (hs2 t) (ms3 t) (hs3 t) (ms4 t) (hs4 t) (ms5 t) (hs5 t) scM (Memref.isWhole_whole _) ((hcond0 t).mpr h) (iblk m c 0 t) (iblk m c 1 t) (iblk m c 2 t) (iblk m c 3 t) (iblk m c 4 t)
  else
    outB c (grid0.coords t) (ms0 t) (hs0 t) (ms1 t) (hs1 t) (ms2 t) (hs2 t) (ms3 t) (hs3 t) (ms4 t) (hs4 t) (ms5 t) (hs5 t) scM (Memref.isWhole_whole _) (fun hc => h ((hcond0 t).mp hc)) (iblk m c 0 t) (iblk m c 1 t) (iblk m c 2 t) (iblk m c 3 t) (iblk m c 4 t) (proj m c)

theorem outsAt_A (c : Dev nD) (t : Fin cfg0.N) (h : t.val = 0) :
    outsAt m c t = outA c (grid0.coords t) (ms0 t) (hs0 t) (ms1 t) (hs1 t) (ms2 t) (hs2 t) (ms3 t) (hs3 t) (ms4 t) (hs4 t) (ms5 t) (hs5 t) scM (Memref.isWhole_whole _) ((hcond0 t).mpr h) (iblk m c 0 t) (iblk m c 1 t) (iblk m c 2 t) (iblk m c 3 t) (iblk m c 4 t) := dif_pos h

theorem outsAt_B (c : Dev nD) (t : Fin cfg0.N) (h : ¬t.val = 0) :
    outsAt m c t = outB c (grid0.coords t) (ms0 t) (hs0 t) (ms1 t) (hs1 t) (ms2 t) (hs2 t) (ms3 t) (hs3 t) (ms4 t) (hs4 t) (ms5 t) (hs5 t) scM (Memref.isWhole_whole _) (fun hc => h ((hcond0 t).mp hc)) (iblk m c 0 t) (iblk m c 1 t) (iblk m c 2 t) (iblk m c 3 t) (iblk m c 4 t) (proj m c) := dif_neg h

/-- The invariant before position `n`: before the first point the scratch at anything; afterwards at the projection. -/
def PhiS (c : Dev nD) : ℕ → sProp 𝕄
  | 0 => iprop(∃ d, owns (c : Thread nD τ) scM fullShare d)
  | _ + 1 => owns (c : Thread nD τ) scM fullShare (proj m c)

theorem PhiS_zero (c : Dev nD) (n : ℕ) (hz : n = 0) : PhiS m c n = iprop(∃ d, owns (c : Thread nD τ) scM fullShare d) := by
  subst hz; rfl
theorem PhiS_succ (c : Dev nD) (n : ℕ) : PhiS m c (n + 1) = owns (c : Thread nD τ) scM fullShare (proj m c) := rfl
theorem PhiS_pos (c : Dev nD) (n : ℕ) (hz : n ≠ 0) : PhiS m c n = owns (c : Thread nD τ) scM fullShare (proj m c) := by
  cases n with
  | zero => exact absurd rfl hz
  | succ n => rfl

/-! ## The proof data -/

/-- The proof data on core `c`: the arrays as the region finds them; after the body each input's buffer at its
    block and the output's at `outsAt`; the invariant `PhiS`; the adjacency array held half by each of its two
    windows, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outsAt m c t := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. Every input's memref holds its block; at the first point the scratch holds anything and
    the body leaves the projection in it, at a later point it holds the projection and is handed back as it was;
    the output's buffer is taken at anything and left at the read-back of the point's two stores. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  rw [show (dats m 0 c).leavesExact 5 t = owns (c : Thread nD τ) (ms5 t) fullShare ((dats m 0 c).after 5 t) from rfl, after5]
  by_cases hz : t.val = 0
  · obtain rfl : t = t₀ := Fin.ext hz
    rw [outsAt_A m c t₀ hz]
    unfold outA
    rw [PhiS_castSucc m c t₀, PhiS_zero m c _ hz]
    iintro ⟨HS, Ho, ⟨%d0, H0⟩, ⟨%d1, H1⟩, ⟨%d2, H2⟩, ⟨%d3, H3⟩, ⟨%d4, H4⟩, ⟨%d5, H5⟩⟩
    iapply ((kernelRunA c (grid0.coords t₀) _ _ _ _ _ _ _ _ _ _ _ _ _ _ ((hcond0 t₀).mpr hz) (iblk m c 0 t₀) (iblk m c 1 t₀) (iblk m c 2 t₀) (iblk m c 3 t₀) (iblk m c 4 t₀)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS]
    · unfold owns proj soutA; iexists _; isplitr
      swap; · iexact HS
      ipureintro; exact View.read_writes_of_cover _ _ _ _ _ (coverAS c _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA5 c _ _ _ _ _ _ _ _ _ _ _ _ _ _ _ _ _ _ _ _ _)
  · rw [outsAt_B m c t hz]
    unfold outB
    rw [PhiS_castSucc m c t, PhiS_pos m c _ hz]
    iintro ⟨HS, Ho, ⟨%d0, H0⟩, ⟨%d1, H1⟩, ⟨%d2, H2⟩, ⟨%d3, H3⟩, ⟨%d4, H4⟩, ⟨%d5, H5⟩⟩
    iapply ((kernelRunB c (grid0.coords t) _ _ _ _ _ _ _ _ _ _ _ _ _ _ (fun hc => hz ((hcond0 t).mp hc)) (iblk m c 0 t) (iblk m c 1 t) (iblk m c 2 t) (iblk m c 3 t) (iblk m c 4 t) (proj m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB5 c _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KiLaunch.lean ====
/-
  The launch of the graph-layer kernel: from the body obligation to the run of @main.

  The adjacency array is read through two windows. Its buffer, whole at the launch contents, is dealt to them
  half and half; every other array goes whole to its one window. The scratch enters the invariant at anything and
  leaves it at the projection, which is then forgotten. The run ends with every window's array at what the
  write-backs made of it: the four argument arrays, which are only read, at their launch contents.
-/
import proofs.«102523_g18270790877214_cont_8to1_805_7_alg».proof.Proof.KiBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window's array is a whole buffer: its element set is all of it. -/
theorem arr_set (w : Fin 6) : (cfg0.win w).arr.view.set = Finset.univ := (arr_whole0 w).set_eq_univ

/-- The distinct buffers behind the six windows' arrays are five: the adjacency array serves two windows. -/
theorem bigSep_arrs {M : Type} [URA M] (Φ : Ref sig .tc → sProp M) :
    bigSep (Finset.univ.image (Pipeline.arrRef spec0)) Φ
      = iprop(Φ main_arg1 ∗ Φ main_arg0 ∗ Φ main_arg2 ∗ Φ main_arg3 ∗ Φ main_v0) :=
  bigSep_eq_bigSepL_of_eq [main_arg1, main_arg0, main_arg2, main_arg3, main_v0] (by decide) (by decide) Φ

/-- The buffers behind the windows' arrays, whole at the launch contents, are the windows' arrays at the shares the
    proof data name: the adjacency array's full share is its left and right halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, bigSep_arrs]
  simp only [arr_set, View.set_whole]
  show (iprop((((c.tc : Thread nD τ).loc main_arg1) ↦{fullShare} V m c main_arg1) ∗ (((c.tc : Thread nD τ).loc main_arg0) ↦{fullShare} V m c main_arg0) ∗ (((c.tc : Thread nD τ).loc main_arg2) ↦{fullShare} V m c main_arg2) ∗ (((c.tc : Thread nD τ).loc main_arg3) ↦{fullShare} V m c main_arg3) ∗ (((c.tc : Thread nD τ).loc main_v0) ↦{fullShare} V m c main_v0)) : sProp 𝕄)
    ⊢ iprop((((c.tc : Thread nD τ).loc main_arg1) ↦{fullShare.left} V m c main_arg1) ∗ (((c.tc : Thread nD τ).loc main_arg1) ↦{fullShare.right} V m c main_arg1) ∗ (((c.tc : Thread nD τ).loc main_arg0) ↦{fullShare} V m c main_arg0) ∗ (((c.tc : Thread nD τ).loc main_arg2) ↦{fullShare} V m c main_arg2) ∗ (((c.tc : Thread nD τ).loc main_arg3) ↦{fullShare} V m c main_arg3) ∗ (((c.tc : Thread nD τ).loc main_v0) ↦{fullShare} V m c main_v0))
  iintro ⟨H1, H0, H2, H3, Hv⟩
  ihave H1' := (pointsTo_share (PosShare.mem_left_op_right fullShare)).1 $$ H1
  icases H1' with ⟨Ha, Hb⟩
  isplitl [Ha]; · iexact Ha
  isplitl [Hb]; · iexact Hb
  isplitl [H0]; · iexact H0
  isplitl [H2]; · iexact H2
  isplitl [H3]; · iexact H3
  iexact Hv

/-- What the launch hands the region — the scratch at anything — is the invariant before the first point. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 from rfl, PhiS_zero m c 0 rfl, scopedRest0_eq]
  simp only [scM, owns_whole]
  iintro ⟨-, H⟩; iexact H

/-- After the last point the invariant gives the scratch back, its contents forgotten. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val from rfl,
    PhiS_pos m c _ (by rw [Fin.val_last]; have : cfg0.N = 25 := N_0; omega), scopedRest0_eq]
  simp only [scM, owns_whole]
  iintro H; isplitr; · iempintro
  iexists _; iexact H

set_option backward.isDefEq.respectTransparency.types false in
/-- From any memory with zero counters every weakly fair execution of @main terminates, nothing faulting, and every
    window's array ends at what the write-backs made of it. -/
theorem run_main : θ_run defs (onTc (τ := τ) (main (F := F))) ⟨m, fun _ => 0, ρ⟩
    (fun r => ∀ c : Dev nD, ∀ w : Fin cfg0.W,
      r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := _) (hu₀ := .rfl)
    (V := V m) (hmain := hmain m Variants.none) (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by
      iintro H; isplitr; · iempintro
      iexact H)
    (hin := hin m) (hout := hout m)
    (QY := fun _ _ => True)
    (hY := fun c s' => by
      iintro ⟨-, -, HSI⟩; imodintro; isplitr; · ipureintro; trivial
      iexact HSI)
    (hQ := fun s h c w => (h c).1 w)

/-- The four argument arrays end as they began: each is an input window's array, never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c 2).trans (((dats m 0 c).arrAt_in 2 rfl _).trans (A_eq m c 2)),
     (h c 0).trans (((dats m 0 c).arrAt_in 0 rfl _).trans (A_eq m c 0)),
     (h c 3).trans (((dats m 0 c).arrAt_in 3 rfl _).trans (A_eq m c 3)),
     (h c 4).trans (((dats m 0 c).arrAt_in 4 rfl _).trans (A_eq m c 4))⟩) (run_main m ρ)

end Cert.KernelIdeal.Hand

end
-- ==== Proof.KiPieces.lean ====
/-
  What the body's stores leave, read as values.

  The scratch after the first point holds the one whole store's payload: the projection of the point's input and W1
  blocks. The output's staging buffer after any point holds two half blocks: rows 0 … 199 the first store's payload,
  rows 200 … 399 the second's; each is the body's arithmetic over what the point loaded — the projection (just
  stored at the first point, found in the scratch later), W2, the strip's 200 rows of the input block starting at the
  point's row offset, and the half block of adjacency rows.
-/
import proofs.«102523_g18270790877214_cont_8to1_805_7_alg».proof.Proof.KiBody
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-- Rows p of the upper half block and 200 + p of the lower, as rows of the 400-row staging buffer. -/
abbrev up (p : Fin 200) : Fin 400 := ⟨p.val, by omega⟩
abbrev dn (p : Fin 200) : Fin 400 := ⟨200 + p.val, by omega⟩

/-- The upper half block's rectangle holds exactly the rows below 200. -/
theorem up_emb (p : Fin 200) (j : Fin 128) :
    (Rect.unit (s := S400x128) ![0, 0] S200x128.size inb_S400x128_S200x128_0_0).emb (ix2 p j) = ix2 (up p) j :=
  funext fun a => Fin.ext (by
    match a with
    | ⟨0, _⟩ => show 0 + 1 * p.val = p.val; omega
    | ⟨1, _⟩ => show 0 + 1 * j.val = j.val; omega)

theorem dn_emb (p : Fin 200) (j : Fin 128) :
    (Rect.unit (s := S400x128) ![200, 0] S200x128.size inb_S400x128_S200x128_200_0).emb (ix2 p j) = ix2 (dn p) j :=
  funext fun a => Fin.ext (by
    match a with
    | ⟨0, _⟩ => show 200 + 1 * p.val = 200 + p.val; omega
    | ⟨1, _⟩ => show 0 + 1 * j.val = j.val; omega)

/-- What the first point leaves in the scratch: the projection of the loaded input and W1 blocks. -/
theorem soutA_eq (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : cond0 i) (x0 : Vec F S200x10000 .f32) (x1 : Vec F S200x10000 .f32) (x2 : Vec F S10000x128 .f32) (x3 : Vec F S128x128 .f32) (x4 : Vec F S128x256 .f32) :
    soutA (F := F) c i arg1 harg1 arg2 harg2 arg3 harg3 arg4 harg4 arg5 harg5 arg6 harg6 arg7 harg7 hc0 x0 x1 x2 x3 x4 = k0_pay2 x2 x3 := by
  unfold soutA
  rw [View.read_writes_eq_canon _ _ _ (coverAS c i arg1 harg1 arg2 harg2 arg3 harg3 arg4 harg4 arg5 harg5 arg6 harg6 arg7 harg7 hc0 x0 x1 x2 x3 x4)]
  unfold kernelRunA
  dsimp only
  sl_unfold_words
  rw [View.canon_unit_zero hz2]
  simp only [View.readAt_eq_ld, harg3.read_unread, harg4.read_unread, View.ld_unit_zero (S := S10000x128) hz2, View.ld_unit_zero (S := S128x128) hz2]

/-- A later point, rows 0 … 199. -/
theorem outB_up (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : ¬cond0 i) (x0 : Vec F S200x10000 .f32) (x1 : Vec F S200x10000 .f32) (x2 : Vec F S10000x128 .f32) (x3 : Vec F S128x128 .f32) (x4 : Vec F S128x256 .f32) (xs : Vec F S10000x128 .f32) (p : Fin 200) (j : Fin 128) :
    outB (F := F) c i arg1 harg1 arg2 harg2 arg3 harg3 arg4 harg4 arg5 harg5 arg6 harg6 arg7 harg7 hc0 x0 x1 x2 x3 x4 xs (ix2 (up p) j)
      = k0_pay3 xs x4 (View.ld x2 (Rect.unit (s := S10000x128) (k0_off1 i) S200x128.size (k0_off1_inb i))) x0 (ix2 p j) := by
  unfold outB
  rw [View.read_writes_eq_canon _ _ _ (coverB5 c i arg1 harg1 arg2 harg2 arg3 harg3 arg4 harg4 arg5 harg5 arg6 harg6 arg7 harg7 hc0 x0 x1 x2 x3 x4 xs)]
  unfold kernelRunB
  dsimp only
  sl_unfold_words
  rw [View.canon_cons_of_not_mem]
  swap
  · dsimp only
    rw [Rect.mem_set_unit]
    intro h
    have h0 : 200 ≤ p.val := (h 0).1
    have := p.isLt
    omega
  rw [← up_emb p j, View.canon_cons_emb]
  simp only [View.readAt_eq_ld, harg1.read_unread, harg3.read_unread, harg5.read_unread, harg7.read_unread,
    View.ld_unit_zero (S := S10000x128) hz2, View.ld_unit_zero (S := S128x256) hz2, View.ld_unit_zero (S := S200x10000) hz2]

/-- A later point, rows 200 … 399. -/
theorem outB_dn (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : ¬cond0 i) (x0 : Vec F S200x10000 .f32) (x1 : Vec F S200x10000 .f32) (x2 : Vec F S10000x128 .f32) (x3 : Vec F S128x128 .f32) (x4 : Vec F S128x256 .f32) (xs : Vec F S10000x128 .f32) (p : Fin 200) (j : Fin 128) :
    outB (F := F) c i arg1 harg1 arg2 harg2 arg3 harg3 arg4 harg4 arg5 harg5 arg6 harg6 arg7 harg7 hc0 x0 x1 x2 x3 x4 xs (ix2 (dn p) j)
      = k0_pay1 x4 (k0_pay5 xs (View.ld x2 (Rect.unit (s := S10000x128) (k0_off2 i) S200x128.size (k0_off2_inb i))) x1)
          (k0_pay6 xs x4 (View.ld x2 (Rect.unit (s := S10000x128) (k0_off2 i) S200x128.size (k0_off2_inb i))) x1) (ix2 p j) := by
  unfold outB
  rw [View.read_writes_eq_canon _ _ _ (coverB5 c i arg1 harg1 arg2 harg2 arg3 harg3 arg4 harg4 arg5 harg5 arg6 harg6 arg7 harg7 hc0 x0 x1 x2 x3 x4 xs)]
  unfold kernelRunB
  dsimp only
  sl_unfold_words
  rw [← dn_emb p j, View.canon_cons_emb]
  simp only [View.readAt_eq_ld, harg2.read_unread, harg3.read_unread, harg5.read_unread, harg7.read_unread,
    View.ld_unit_zero (S := S10000x128) hz2, View.ld_unit_zero (S := S128x256) hz2, View.ld_unit_zero (S := S200x10000) hz2]

/-- The first point, rows 0 … 199: the projection is the one just stored. -/
theorem outA_up (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : cond0 i) (x0 : Vec F S200x10000 .f32) (x1 : Vec F S200x10000 .f32) (x2 : Vec F S10000x128 .f32) (x3 : Vec F S128x128 .f32) (x4 : Vec F S128x256 .f32) (p : Fin 200) (j : Fin 128) :
    outA (F := F) c i arg1 harg1 arg2 harg2 arg3 harg3 arg4 harg4 arg5 harg5 arg6 harg6 arg7 harg7 hc0 x0 x1 x2 x3 x4 (ix2 (up p) j)
      = k0_pay3 (k0_pay2 x2 x3) x4 (View.ld x2 (Rect.unit (s := S10000x128) (k0_off1 i) S200x128.size (k0_off1_inb i))) x0 (ix2 p j) := by
  unfold outA
  rw [View.read_writes_eq_canon _ _ _ (coverA5 c i arg1 harg1 arg2 harg2 arg3 harg3 arg4 harg4 arg5 harg5 arg6 harg6 arg7 harg7 hc0 x0 x1 x2 x3 x4)]
  unfold kernelRunA
  dsimp only
  sl_unfold_words
  rw [View.canon_cons_of_not_mem]
  swap
  · dsimp only
    rw [Rect.mem_set_unit]
    intro h
    have h0 : 200 ≤ p.val := (h 0).1
    have := p.isLt
    omega
  rw [← up_emb p j, View.canon_cons_emb]
  simp only [View.readAt_eq_ld, harg1.read_unread, harg2.read_unread, harg3.read_unread, harg4.read_unread, harg5.read_unread,
    View.readCov_unit_zero (S := S10000x128) _ hz2,
    View.ld_unit_zero (S := S10000x128) hz2, View.ld_unit_zero (S := S128x128) hz2, View.ld_unit_zero (S := S128x256) hz2, View.ld_unit_zero (S := S200x10000) hz2]

/-- The first point, rows 200 … 399. -/
theorem outA_dn (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x256 .f32) (harg5 : arg5.IsWhole) (arg6 : Memref sig .tc .vmem S400x128 .f32) (harg6 : arg6.IsWhole) (arg7 : Memref sig .tc .vmem S10000x128 .f32) (harg7 : arg7.IsWhole) (hc0 : cond0 i) (x0 : Vec F S200x10000 .f32) (x1 : Vec F S200x10000 .f32) (x2 : Vec F S10000x128 .f32) (x3 : Vec F S128x128 .f32) (x4 : Vec F S128x256 .f32) (p : Fin 200) (j : Fin 128) :
    outA (F := F) c i arg1 harg1 arg2 harg2 arg3 harg3 arg4 harg4 arg5 harg5 arg6 harg6 arg7 harg7 hc0 x0 x1 x2 x3 x4 (ix2 (dn p) j)
      = k0_pay1 x4 (k0_pay5 (k0_pay2 x2 x3) (View.ld x2 (Rect.unit (s := S10000x128) (k0_off2 i) S200x128.size (k0_off2_inb i))) x1) (k0_pay6 (k0_pay2 x2 x3) x4 (View.ld x2 (Rect.unit (s := S10000x128) (k0_off2 i) S200x128.size (k0_off2_inb i))) x1) (ix2 p j) := by
  unfold outA
  rw [View.read_writes_eq_canon _ _ _ (coverA5 c i arg1 harg1 arg2 harg2 arg3 harg3 arg4 harg4 arg5 harg5 arg6 harg6 arg7 harg7 hc0 x0 x1 x2 x3 x4)]
  unfold kernelRunA
  dsimp only
  sl_unfold_words
  rw [← dn_emb p j, View.canon_cons_emb]
  simp only [View.readAt_eq_ld, harg1.read_unread, harg2.read_unread, harg3.read_unread, harg4.read_unread, harg5.read_unread,
    View.readCov_unit_zero (S := S10000x128) _ hz2,
    View.ld_unit_zero (S := S10000x128) hz2, View.ld_unit_zero (S := S128x128) hz2, View.ld_unit_zero (S := S128x256) hz2, View.ld_unit_zero (S := S200x10000) hz2]

end Cert.KernelIdeal.Hand

end
-- ==== Proof.Spec.lean ====
/-
  The graph layer as one function of its four arguments, index by index, over the extended reals.

  With x the 10000×128 input, A the 10000×10000 adjacency matrix, W1 128×128 and W2 128×256:
    proj (l, k) = Σ_q x(l,q) · W1(k,q)                      (x · W1ᵀ)
    nb (r, k)   = Σ_l A(r,l) · proj(l,k)                     (A · proj)
    pre (r, j)  = Σ_k (x(r,k) + nb(r,k)) · W2(j,k) + Σ_k (x(r,k) · nb(r,k)) · W2(j,128+k)
    G (r, j)    = pre(r,j) if pre(r,j) ≥ 0, else 0.01 · pre(r,j)
  The second linear layer applied to the concatenation [x + nb, x · nb] is the single sum over 256 columns of
  W2; it splits into the two sums over 128 columns above, which uses only that + is associative and commutative.
-/
import Idealize.ShloMosaic.Lib.ValueIdx
import Idealize.ShloMosaic.PureOps.Ideal.Laws

noncomputable section

open scoped BigOperators

namespace Cert.GraphLayer

open Idealize.ShloMosaic Idealize.ShloMosaic.ValueIdx

/-- Column k of the left half of W2's 256 columns, and of the right half. -/
abbrev lo (k : Fin 128) : Fin 256 := ⟨k.val, by omega⟩
abbrev hi (k : Fin 128) : Fin 256 := ⟨128 + k.val, by omega⟩

/-- The leaky rectifier with slope the f32 nearest 0.01, as both programs spell it: compare with zero, select. -/
def act (y : Ideal .f32) : Ideal .f32 :=
  Scalar.select (FloatOps.cmpf .oge y (Ideal.ofBits .f32 0x00000000#32)) y (Ideal.ofBits .f32 0x3C23D70A#32 * y)

/-- x · W1ᵀ at (l, k). -/
def proj (x : FVec Ideal ⟨2, ![10000, 128]⟩ .f32) (w1 : FVec Ideal ⟨2, ![128, 128]⟩ .f32) (l : Fin 10000) (k : Fin 128) : Ideal .f32 :=
  ∑ q : Fin 128, x (ix2 l q) * w1 (ix2 k q)

/-- A · (x · W1ᵀ) at (r, k). -/
def nb (x : FVec Ideal ⟨2, ![10000, 128]⟩ .f32) (adj : FVec Ideal ⟨2, ![10000, 10000]⟩ .f32) (w1 : FVec Ideal ⟨2, ![128, 128]⟩ .f32)
    (r : Fin 10000) (k : Fin 128) : Ideal .f32 :=
  ∑ l : Fin 10000, adj (ix2 r l) * proj x w1 l k

/-- The second layer before the rectifier, from a row of x and the same row of nb: the sum over W2's left half
    against x + nb plus the sum over its right half against x · nb. -/
def pre2 (w2 : FVec Ideal ⟨2, ![128, 256]⟩ .f32) (xr nr : Fin 128 → Ideal .f32) (j : Fin 128) : Ideal .f32 :=
  (∑ k : Fin 128, (xr k + nr k) * w2 (ix2 j (lo k))) + (∑ k : Fin 128, (xr k * nr k) * w2 (ix2 j (hi k)))

/-- The result, index by index. -/
def G (x : FVec Ideal ⟨2, ![10000, 128]⟩ .f32) (adj : FVec Ideal ⟨2, ![10000, 10000]⟩ .f32) (w1 : FVec Ideal ⟨2, ![128, 128]⟩ .f32)
    (w2 : FVec Ideal ⟨2, ![128, 256]⟩ .f32) : FVec Ideal ⟨2, ![10000, 128]⟩ .f32 :=
  fun i => act (pre2 w2 (fun k => x (ix2 (i 0) k)) (fun k => nb x adj w1 (i 0) k) (i 1))

end Cert.GraphLayer

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibTransDot.lean ====
/-
  A matrix product with the right operand transposed, read at an index, over the extended reals.

  For the dimension numbers of an M×K by N×K product (contract the left operand's second axis with the
  right operand's second axis; no batch axes: lhs · rhsᵀ) the entry (i, j) of the product is the sum over k of
  lhs (i, k) · rhs (j, k): stated once for a `tpu.matmul` accumulating into the zero splat and once for the
  host's `dot_general`, for any extents M, K, N. The contraction index of such a product has one axis of
  extent K, and the sum over it is re-indexed by that coordinate.
-/
import Idealize.ShloMosaic.Lib.ValueIdx
import Idealize.ShloMosaic.PureOps.Ideal.Laws

noncomputable section

open scoped BigOperators

namespace Idealize.ShloMosaic.TransDot

open Idealize.ShloMosaic Idealize.ShloMosaic.ValueIdx

variable {M K N : Nat}

/-- The left operand's row coordinate is the result's row coordinate. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_col (j : (⟨2, ![M, N]⟩ : Shape).Idx) (q : (DotDims.transposedRhs M K N).contr.Idx) :
    ((DotDims.transposedRhs M K N).lhsIdx j q 1).val = (q ⟨0, show 0 < (DotDims.transposedRhs M K N).contr.rank from Nat.one_pos⟩).val :=
  (DotDims.transposedRhs M K N).lhsIdx_val_of_single rfl j q

/-- The right operand's row coordinate is the result's column coordinate. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_col (j : (⟨2, ![M, N]⟩ : Shape).Idx) (q : (DotDims.transposedRhs M K N).contr.Idx) :
    ((DotDims.transposedRhs M K N).rhsIdx j q 1).val = (q ⟨0, show 0 < (DotDims.transposedRhs M K N).contr.rank from Nat.one_pos⟩).val :=
  (DotDims.transposedRhs M K N).rhsIdx_val_of_single rfl j q

/-- The sum over the contraction index is the sum over k of lhs (i, k) · rhs (j, k). -/
theorem sum_contr (lhs : (⟨2, ![M, K]⟩ : Shape).Idx → EReal) (rhs : (⟨2, ![N, K]⟩ : Shape).Idx → EReal)
    (i : Fin M) (j : Fin N) :
    (∑ q : (DotDims.transposedRhs M K N).contr.Idx,
        lhs ((DotDims.transposedRhs M K N).lhsIdx (ix2 i j) q) * rhs ((DotDims.transposedRhs M K N).rhsIdx (ix2 i j) q))
      = ∑ k : Fin K, lhs (ix2 i k) * rhs (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhs_row _ _
      | ⟨1, _⟩ => exact (lhs_col _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhs_row _ _
      | ⟨1, _⟩ => exact (rhs_col _ _).trans hk)
  rw [el, er]

/-- A `tpu.matmul` of these dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) :=
  (Ideal.matmul_constant_zero_apply (DotDims.transposedRhs M K N) prec lhs rhs (ix2 i j)).trans (sum_contr lhs rhs i j)

/-- The host's `dot_general` of these dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (i : Fin M) (j : Fin N) :
    FloatOps.dotGeneral (DotDims.transposedRhs M K N) prec sched lhs rhs (ix2 i j)
      = ∑ k : Fin K, lhs (ix2 i k) * rhs (ix2 j k) :=
  (Ideal.dotGeneral_apply (DotDims.transposedRhs M K N) prec sched lhs rhs (ix2 i j)).trans (sum_contr lhs rhs i j)

end Idealize.ShloMosaic.TransDot

end
-- ==== Proof.KiPay.lean ====
/-
  The kernel body's arithmetic at an index, over the extended reals.

  The body computes, for a strip of 200 rows, from the projection pr = x · W1ᵀ (10000×128), W2, the strip's rows xr of x
  and its rows ar of the adjacency matrix:   act ( Σ_k (xr + ar·pr)(p,k) · W2(j,k) + Σ_k (xr · (ar·pr))(p,k) · W2(j,128+k) ).
  It does so twice per grid point, once per half block, in two spellings of the same arithmetic; and at the first
  point it computes the projection itself.
-/
import proofs.«102523_g18270790877214_cont_8to1_805_7_alg».proof.Proof.Gen.KernelIdeal.Skeleton
import proofs.«102523_g18270790877214_cont_8to1_805_7_alg».proof.Proof.Spec
import proofs.«102523_g18270790877214_cont_8to1_805_7_alg».proof.Proof.LibPlainDot
import proofs.«102523_g18270790877214_cont_8to1_805_7_alg».proof.Proof.LibTransDot
import Idealize.ShloMosaic.Lib.Pipeline.Value

noncomputable section

open scoped BigOperators

namespace Cert.KernelIdeal.HandValue

open Idealize.ShloMosaic Idealize.ShloMosaic.ValueIdx Cert.KernelIdeal Cert.KernelIdeal.Gen Cert.GraphLayer

/-- The three products' dimension numbers: one plain product (adjacency rows times projection) and two with the
    right operand transposed (x · W1ᵀ, and a strip times a half of W2 transposed). -/
theorem dAdj : dot_S200x10000_S10000x128_S200x128_1_0_0_1_n_n = DotDims.plain 200 10000 128 := rfl
theorem dProj : dot_S10000x128_S128x128_S10000x128_1_1_0_0_n_n = DotDims.transposedRhs 10000 128 128 := rfl
theorem dW2 : dot_S200x128_S128x128_S200x128_1_1_0_0_n_n = DotDims.transposedRhs 200 128 128 := rfl

/-- The projection the first point stores: entry (l, k) is Σ_q x(l,q) · W1(k,q). -/
theorem pay2_apply (v42 : FVec Ideal S10000x128 .f32) (v43 : FVec Ideal S128x128 .f32) (l : Fin 10000) (k : Fin 128) :
    k0_pay2 v42 v43 (ix2 l k) = GraphLayer.proj v42 v43 l k := by
  unfold k0_pay2 GraphLayer.proj
  rw [shapeCast_self, dProj]
  exact TransDot.matmul_zero_apply none v42 v43 l k

/-- The left 128 columns of W2, and the right 128, at (j, k). -/
theorem w2lo (v4 : FVec Ideal S128x256 .f32) (j k : Fin 128) :
    extractStridedSlice S128x128 ![0, 0] v4 slices_S128x256_o0_0_S128x128 (ix2 j k) = v4 (ix2 j (lo k)) :=
  extractStridedSlice_apply _ v4 _ (ix2 j k) (ix2 j (lo k)) (fun a => by
    match a with
    | ⟨0, _⟩ => show j.val = 0 + j.val; omega
    | ⟨1, _⟩ => show k.val = 0 + k.val; omega)

theorem w2hi (v4 : FVec Ideal S128x256 .f32) (j k : Fin 128) :
    extractStridedSlice S128x128 ![0, 128] v4 slices_S128x256_o0_128_S128x128 (ix2 j k) = v4 (ix2 j (hi k)) :=
  extractStridedSlice_apply _ v4 _ (ix2 j k) (ix2 j (hi k)) (fun a => by
    match a with
    | ⟨0, _⟩ => show j.val = 0 + j.val; omega
    | ⟨1, _⟩ => show 128 + k.val = 128 + k.val; rfl)

/-- One half block at (p, j): from the projection, W2, the strip's rows of x and of the adjacency matrix. -/
def half (pr : FVec Ideal S10000x128 .f32) (w2 : FVec Ideal S128x256 .f32) (xr : FVec Ideal S200x128 .f32)
    (ar : FVec Ideal S200x10000 .f32) (p : Fin 200) (j : Fin 128) : Ideal .f32 :=
  act (pre2 w2 (fun k => xr (ix2 p k)) (fun k => ∑ l : Fin 10000, ar (ix2 p l) * pr (ix2 l k)) j)

/-- The first half block's store. -/
theorem pay3_apply (v3 : FVec Ideal S10000x128 .f32) (v4 : FVec Ideal S128x256 .f32) (v7 : FVec Ideal S200x128 .f32)
    (v12 : FVec Ideal S200x10000 .f32) (p : Fin 200) (j : Fin 128) :
    k0_pay3 v3 v4 v7 v12 (ix2 p j) = half v3 v4 v7 v12 p j := by
  unfold k0_pay3 half act pre2
  rw [dW2, dAdj]
  simp only [select_apply, cmpf_apply, mulf_apply, addf_apply, broadcast_apply,
    TransDot.matmul_zero_apply, PlainDot.matmul_zero_apply, w2lo, w2hi]
  rfl

/-- The second half block's store: the same arithmetic, spelt through three intermediate values. -/
theorem pay1_apply (v3 : FVec Ideal S10000x128 .f32) (v4 : FVec Ideal S128x256 .f32) (v11 : FVec Ideal S200x128 .f32)
    (v27 : FVec Ideal S200x10000 .f32) (p : Fin 200) (j : Fin 128) :
    k0_pay1 v4 (k0_pay5 v3 v11 v27) (k0_pay6 v3 v4 v11 v27) (ix2 p j) = half v3 v4 v11 v27 p j := by
  unfold k0_pay1 k0_pay5 k0_pay6 k0_pay4 half act pre2
  rw [dW2, dAdj]
  simp only [select_apply, cmpf_apply, mulf_apply, addf_apply, broadcast_apply,
    TransDot.matmul_zero_apply, PlainDot.matmul_zero_apply, w2lo, w2hi]
  rfl

end Cert.KernelIdeal.HandValue

end
-- ==== Proof.KiValue.lean ====
/-
  The kernel's result array is the graph layer's function G of the argument arrays.

  Grid point t works on rows 400t … 400t+399. Its two adjacency windows hold rows 400t … 400t+199 and 400t+200 … 400t+399
  of the adjacency matrix (blocks 2t and 2t+1 of 200 rows); the input window holds the whole input, of which the body
  takes the same 400 rows in two strips; the scratch holds input · W1ᵀ, computed at the first point from the whole
  input and W1. So row q of the block the point writes back is row 400t+q of G, and every row of the result is
  written by the point t = row / 400.
-/
import proofs.«102523_g18270790877214_cont_8to1_805_7_alg».proof.Proof.KiLaunch
import proofs.«102523_g18270790877214_cont_8to1_805_7_alg».proof.Proof.KiPieces
import proofs.«102523_g18270790877214_cont_8to1_805_7_alg».proof.Proof.KiPay
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

open Idealize.ShloMosaic.ValueIdx Cert.KernelIdeal.HandValue

variable (m : (ℓ : Loc nD τ sig) → Buf (Elt Ideal) ℓ) (ρ : Dev nD → PrngReg)

/-! ## The schedule: which rows each window holds -/

theorem coords_val : ∀ t : Fin cfg0.N, (grid0.coords t 0).val = t.val :=
  (by decide +kernel : ∀ t : Fin grid0.N, (grid0.coords t 0).val = t.val)
theorem idxw0 : ∀ t : Fin cfg0.N, win0_0.index t (0 : Fin 2) = 2 * t.val ∧ win0_0.index t (1 : Fin 2) = 0 :=
  (by decide +kernel : ∀ t : Fin grid0.N, _)
theorem idxw1 : ∀ t : Fin cfg0.N, win0_1.index t (0 : Fin 2) = 2 * t.val + 1 ∧ win0_1.index t (1 : Fin 2) = 0 :=
  (by decide +kernel : ∀ t : Fin grid0.N, _)
theorem idxw2 : ∀ t : Fin cfg0.N, win0_2.index t (0 : Fin 2) = 0 ∧ win0_2.index t (1 : Fin 2) = 0 :=
  (by decide +kernel : ∀ t : Fin grid0.N, _)
theorem idxw3 : ∀ t : Fin cfg0.N, win0_3.index t (0 : Fin 2) = 0 ∧ win0_3.index t (1 : Fin 2) = 0 :=
  (by decide +kernel : ∀ t : Fin grid0.N, _)
theorem idxw4 : ∀ t : Fin cfg0.N, win0_4.index t (0 : Fin 2) = 0 ∧ win0_4.index t (1 : Fin 2) = 0 :=
  (by decide +kernel : ∀ t : Fin grid0.N, _)
theorem idxw5 : ∀ t : Fin cfg0.N, win0_5.index t (0 : Fin 2) = t.val ∧ win0_5.index t (1 : Fin 2) = 0 :=
  (by decide +kernel : ∀ t : Fin grid0.N, _)

/-- Row q of point t's block, as a row of the 10000-row arrays. -/
def grow (t : Fin cfg0.N) (q : Fin 400) : Fin 10000 :=
  ⟨400 * t.val + q.val, by have := t.isLt; have h : cfg0.N = 25 := N_0; have := q.isLt; omega⟩

/-! ## The argument arrays and the result -/

abbrev aX (c : Dev nD) : FVec Ideal ⟨2, ![10000, 128]⟩ .f32 := m ((c.tc : Thread nD τ).loc main_arg0)
abbrev aA (c : Dev nD) : FVec Ideal ⟨2, ![10000, 10000]⟩ .f32 := m ((c.tc : Thread nD τ).loc main_arg1)
abbrev aW1 (c : Dev nD) : FVec Ideal ⟨2, ![128, 128]⟩ .f32 := m ((c.tc : Thread nD τ).loc main_arg2)
abbrev aW2 (c : Dev nD) : FVec Ideal ⟨2, ![128, 256]⟩ .f32 := m ((c.tc : Thread nD τ).loc main_arg3)

/-- The result array: G of the argument arrays. -/
def Gc (c : Dev nD) : Buf (Elt Ideal) ((c.tc : Thread nD τ).loc main_v0) :=
  GraphLayer.G (aX m c) (aA m c) (aW1 m c) (aW2 m c)

/-! ## The blocks read as rows of the arrays -/

theorem iblk0_at (c : Dev nD) (t : Fin cfg0.N) (p : Fin 200) (l : Fin 10000) :
    (iblk m c 0 t : Vec Ideal S200x10000 .f32) (ix2 p l) = aA m c (ix2 (grow t (up p)) l) := by
  unfold iblk
  rw [View.read_apply]
  show m ((c.tc : Thread nD τ).loc main_arg1) _ = m ((c.tc : Thread nD τ).loc main_arg1) _
  congr 1
  funext a
  apply Fin.ext
  match a with
  | ⟨0, _⟩ => show win0_0.index t (0 : Fin 2) * 200 + 1 * p.val = 400 * t.val + p.val; rw [(idxw0 t).1]; omega
  | ⟨1, _⟩ => show win0_0.index t (1 : Fin 2) * 10000 + 1 * l.val = l.val; rw [(idxw0 t).2]; omega

theorem iblk1_at (c : Dev nD) (t : Fin cfg0.N) (p : Fin 200) (l : Fin 10000) :
    (iblk m c 1 t : Vec Ideal S200x10000 .f32) (ix2 p l) = aA m c (ix2 (grow t (dn p)) l) := by
  unfold iblk
  rw [View.read_apply]
  show m ((c.tc : Thread nD τ).loc main_arg1) _ = m ((c.tc : Thread nD τ).loc main_arg1) _
  congr 1
  funext a
  apply Fin.ext
  match a with
  | ⟨0, _⟩ => show win0_1.index t (0 : Fin 2) * 200 + 1 * p.val = 400 * t.val + (200 + p.val); rw [(idxw1 t).1]; omega
  | ⟨1, _⟩ => show win0_1.index t (1 : Fin 2) * 10000 + 1 * l.val = l.val; rw [(idxw1 t).2]; omega

theorem iblk2_eq (c : Dev nD) (t : Fin cfg0.N) : (iblk m c 2 t : Vec Ideal S10000x128 .f32) = aX m c := by
  funext y
  unfold iblk
  rw [View.read_apply]
  show m ((c.tc : Thread nD τ).loc main_arg0) _ = m ((c.tc : Thread nD τ).loc main_arg0) y
  congr 1
  funext a
  apply Fin.ext
  match a with
  | ⟨0, _⟩ => show win0_2.index t (0 : Fin 2) * 10000 + 1 * (y 0).val = (y 0).val; rw [(idxw2 t).1]; omega
  | ⟨1, _⟩ => show win0_2.index t (1 : Fin 2) * 128 + 1 * (y 1).val = (y 1).val; rw [(idxw2 t).2]; omega

theorem iblk3_eq (c : Dev nD) (t : Fin cfg0.N) : (iblk m c 3 t : Vec Ideal S128x128 .f32) = aW1 m c := by
  funext y
  unfold iblk
  rw [View.read_apply]
  show m ((c.tc : Thread nD τ).loc main_arg2) _ = m ((c.tc : Thread nD τ).loc main_arg2) y
  congr 1
  funext a
  apply Fin.ext
  match a with
  | ⟨0, _⟩ => show win0_3.index t (0 : Fin 2) * 128 + 1 * (y 0).val = (y 0).val; rw [(idxw3 t).1]; omega
  | ⟨1, _⟩ => show win0_3.index t (1 : Fin 2) * 128 + 1 * (y 1).val = (y 1).val; rw [(idxw3 t).2]; omega

theorem iblk4_eq (c : Dev nD) (t : Fin cfg0.N) : (iblk m c 4 t : Vec Ideal S128x256 .f32) = aW2 m c := by
  funext y
  unfold iblk
  rw [View.read_apply]
  show m ((c.tc : Thread nD τ).loc main_arg3) _ = m ((c.tc : Thread nD τ).loc main_arg3) y
  congr 1
  funext a
  apply Fin.ext
  match a with
  | ⟨0, _⟩ => show win0_4.index t (0 : Fin 2) * 128 + 1 * (y 0).val = (y 0).val; rw [(idxw4 t).1]; omega
  | ⟨1, _⟩ => show win0_4.index t (1 : Fin 2) * 256 + 1 * (y 1).val = (y 1).val; rw [(idxw4 t).2]; omega

/-- The strip of the whole input the body takes for the upper half block: rows 400t + p. -/
theorem xrows_up (c : Dev nD) (t : Fin cfg0.N) (p : Fin 200) (k : Fin 128) :
    View.ld (Val := Elt Ideal) (e' := EltTy.f32) (aX m c) (Rect.unit (s := S10000x128) (k0_off1 (grid0.coords t)) S200x128.size (k0_off1_inb (grid0.coords t))) (ix2 p k)
      = aX m c (ix2 (grow t (up p)) k) := by
  show aX m c _ = aX m c _
  congr 1
  funext a
  apply Fin.ext
  have h := k0_off1_eq (grid0.coords t)
  match a with
  | ⟨0, _⟩ =>
    show k0_off1 (grid0.coords t) 0 + 1 * p.val = 400 * t.val + p.val
    rw [h]; show 400 * (grid0.coords t 0).val + 1 * p.val = _; rw [coords_val t]; omega
  | ⟨1, _⟩ =>
    show k0_off1 (grid0.coords t) 1 + 1 * k.val = k.val
    rw [h]; show 0 + 1 * k.val = _; omega

/-- And for the lower half block: rows 400t + 200 + p. -/
theorem xrows_dn (c : Dev nD) (t : Fin cfg0.N) (p : Fin 200) (k : Fin 128) :
    View.ld (Val := Elt Ideal) (e' := EltTy.f32) (aX m c) (Rect.unit (s := S10000x128) (k0_off2 (grid0.coords t)) S200x128.size (k0_off2_inb (grid0.coords t))) (ix2 p k)
      = aX m c (ix2 (grow t (dn p)) k) := by
  show aX m c _ = aX m c _
  congr 1
  funext a
  apply Fin.ext
  have h := k0_off2_eq (grid0.coords t)
  match a with
  | ⟨0, _⟩ =>
    show k0_off2 (grid0.coords t) 0 + 1 * p.val = 400 * t.val + (200 + p.val)
    rw [h]; show 400 * (grid0.coords t 0).val + 200 + 1 * p.val = _; rw [coords_val t]; omega
  | ⟨1, _⟩ =>
    show k0_off2 (grid0.coords t) 1 + 1 * k.val = k.val
    rw [h]; show 0 + 1 * k.val = _; omega

/-! ## The projection in the scratch, and a half block as a strip of G -/

/-- The first point's store, from the whole input and W1, is input · W1ᵀ. -/
theorem pay2_at (c : Dev nD) (t : Fin cfg0.N) (l : Fin 10000) (k : Fin 128) :
    k0_pay2 (iblk m c 2 t) (iblk m c 3 t) (ix2 l k) = GraphLayer.proj (aX m c) (aW1 m c) l k := by
  rw [iblk2_eq, iblk3_eq]
  exact pay2_apply _ _ l k

/-- What the scratch holds from the first point on is input · W1ᵀ. -/
theorem proj_at (c : Dev nD) (l : Fin 10000) (k : Fin 128) :
    proj m c (ix2 l k) = GraphLayer.proj (aX m c) (aW1 m c) l k := by
  unfold proj
  rw [soutA_eq]
  exact pay2_at m c t₀ l k

/-- A half block computed from the projection, W2, a strip of rows of the input and the same rows of the adjacency
    matrix is that strip of G. -/
theorem half_eq (pr : FVec Ideal S10000x128 .f32) (w2 : FVec Ideal S128x256 .f32) (xr : FVec Ideal S200x128 .f32)
    (ar : FVec Ideal S200x10000 .f32) (c : Dev nD) (R : Fin 10000) (p : Fin 200) (j : Fin 128)
    (hpr : ∀ l k, pr (ix2 l k) = GraphLayer.proj (aX m c) (aW1 m c) l k) (hw : w2 = aW2 m c)
    (hx : ∀ k, xr (ix2 p k) = aX m c (ix2 R k)) (ha : ∀ l, ar (ix2 p l) = aA m c (ix2 R l)) :
    half pr w2 xr ar p j = Gc m c (ix2 R j) := by
  subst hw
  unfold half Gc GraphLayer.G GraphLayer.nb
  simp only [hx, ha, hpr]

/-- What point t leaves in the output's staging buffer, at (q, j), is G at row 400t + q. -/
theorem outsAt_at (c : Dev nD) (t : Fin cfg0.N) (q : Fin 400) (j : Fin 128) :
    outsAt m c t (ix2 q j) = Gc m c (ix2 (grow t q) j) := by
  by_cases hz : t.val = 0
  · rw [outsAt_A m c t hz]
    by_cases hq : q.val < 200
    · obtain ⟨p, rfl⟩ : ∃ p : Fin 200, q = up p := ⟨⟨q.val, hq⟩, Fin.ext rfl⟩
      rw [outA_up, pay3_apply]
      exact half_eq m _ _ _ _ c (grow t (up p)) p j (pay2_at m c t) (iblk4_eq m c t)
        (fun k => by rw [iblk2_eq]; exact xrows_up m c t p k) (fun l => iblk0_at m c t p l)
    · obtain ⟨p, rfl⟩ : ∃ p : Fin 200, q = dn p := ⟨⟨q.val - 200, by have := q.isLt; omega⟩, Fin.ext (by show q.val = 200 + (q.val - 200); omega)⟩
      rw [outA_dn, pay1_apply]
      exact half_eq m _ _ _ _ c (grow t (dn p)) p j (pay2_at m c t) (iblk4_eq m c t)
        (fun k => by rw [iblk2_eq]; exact xrows_dn m c t p k) (fun l => iblk1_at m c t p l)
  · rw [outsAt_B m c t hz]
    by_cases hq : q.val < 200
    · obtain ⟨p, rfl⟩ : ∃ p : Fin 200, q = up p := ⟨⟨q.val, hq⟩, Fin.ext rfl⟩
      rw [outB_up, pay3_apply]
      exact half_eq m _ _ _ _ c (grow t (up p)) p j (proj_at m c) (iblk4_eq m c t)
        (fun k => by rw [iblk2_eq]; exact xrows_up m c t p k) (fun l => iblk0_at m c t p l)
    · obtain ⟨p, rfl⟩ : ∃ p : Fin 200, q = dn p := ⟨⟨q.val - 200, by have := q.isLt; omega⟩, Fin.ext (by show q.val = 200 + (q.val - 200); omega)⟩
      rw [outB_dn, pay1_apply]
      exact half_eq m _ _ _ _ c (grow t (dn p)) p j (proj_at m c) (iblk4_eq m c t)
        (fun k => by rw [iblk2_eq]; exact xrows_dn m c t p k) (fun l => iblk1_at m c t p l)

/-! ## From blocks to the array -/

/-- What point t writes back is block t of G. -/
theorem flushed_eq (c : Dev nD) (t : Fin cfg0.N) :
    (dats m 0 c).flushed 5 t = ((cfg0.win 5).blk t).view.read (Elt Ideal) (Gc m c) := by
  show (cfg0.win 5).cut (grid0.coords t) ((dats m 0 c).after 5 t) = _
  rw [after5]
  funext y
  obtain ⟨q, j, rfl⟩ : ∃ (q : Fin 400) (j : Fin 128), y = ix2 q j := ⟨y 0, y 1, eq_ix2 y⟩
  show outsAt m c t (ix2 q j) = _
  rw [outsAt_at, View.read_apply]
  show Gc m c _ = Gc m c _
  congr 1
  funext a
  apply Fin.ext
  match a with
  | ⟨0, _⟩ => show 400 * t.val + q.val = win0_5.index t (0 : Fin 2) * 400 + 1 * q.val; rw [(idxw5 t).1]; omega
  | ⟨1, _⟩ => show j.val = win0_5.index t (1 : Fin 2) * 128 + 1 * j.val; rw [(idxw5 t).2]; omega

/-- An index of the result is in point t's block iff its row lies in rows 400t … 400t+399. -/
theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v0).slice (win0_5.rect t)).set ↔ _
  rw [View.set_slice_whole, Rect.mem_set_unit]
  exact Iff.rfl

/-- Every index of the result is in the block of the point t = row / 400. -/
theorem cover (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := N_0
  refine ⟨⟨(i 0).val / 400, by rw [hN]; omega⟩, flush0_5 _, ?_⟩
  rw [mem_blk]
  intro a
  match a with
  | ⟨0, _⟩ =>
    show win0_5.index _ (0 : Fin 2) * 400 ≤ (i 0).val ∧ (i 0).val < win0_5.index _ (0 : Fin 2) * 400 + 400
    rw [(idxw5 _).1]; show (i 0).val / 400 * 400 ≤ (i 0).val ∧ (i 0).val < (i 0).val / 400 * 400 + 400; omega
  | ⟨1, _⟩ =>
    show win0_5.index _ (1 : Fin 2) * 128 ≤ (i 1).val ∧ (i 1).val < win0_5.index _ (1 : Fin 2) * 128 + 128
    rw [(idxw5 _).2]; omega

/-- The result array after the run is G of the argument arrays. -/
theorem final (c : Dev nD) : (dats m 0 c).arrAt 5 cfg0.N = Gc m c :=
  (dats m 0 c).arrAt_eq_of_cover 5 (Gc m c) (fun t _ => flushed_eq m c t) cover

/-- The run, read: the result at G of the argument arrays, the arguments unchanged. -/
theorem run : θ_run defs (onTc (τ := τ) (main (F := Ideal))) ⟨m, fun _ => 0, ρ⟩ fun r => ∀ c : Dev nD,
      r.2.mem ((c.tc : Thread nD τ).loc main_v0) = Gc m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c 5).trans (final m c),
     (h c 2).trans (((dats m 0 c).arrAt_in 2 rfl _).trans (A_eq m c 2)),
     (h c 0).trans (((dats m 0 c).arrAt_in 0 rfl _).trans (A_eq m c 0)),
     (h c 3).trans (((dats m 0 c).arrAt_in 3 rfl _).trans (A_eq m c 3)),
     (h c 4).trans (((dats m 0 c).arrAt_in 4 rfl _).trans (A_eq m c 4))⟩) (run_main m ρ)

end Cert.KernelIdeal.Hand

end
-- ==== Proof.RefSide.lean ====
/-
  The reference's result, read one operation at a time at an index, is the graph layer's function G.

  The reference computes x · W1ᵀ as a plain product with the transposed W1, A · (that) as a plain product, x + nb and
  x · nb, joins them along the columns into a 10000×256 array, and takes one plain product of it with the transposed
  W2. That last contraction runs over 256 columns; columns 0 … 127 of the joined array are x + nb and columns
  128 … 255 are x · nb, so the sum is the two sums over 128 columns of the specification. Only the associativity and
  commutativity of + are used.
-/
import proofs.«102523_g18270790877214_cont_8to1_805_7_alg».proof.Defs
import proofs.«102523_g18270790877214_cont_8to1_805_7_alg».proof.Proof.Gen.ReferenceIdeal.Run
import proofs.«102523_g18270790877214_cont_8to1_805_7_alg».proof.Proof.Gen.ReferenceIdeal.Read
import proofs.«102523_g18270790877214_cont_8to1_805_7_alg».proof.Proof.Spec

noncomputable section

open scoped BigOperators

namespace Cert.ReferenceIdeal.RefValue

open Idealize.ShloMosaic Idealize.ShloMosaic.ValueIdx
open Cert.ReferenceIdeal Cert.ReferenceIdeal.Gen Cert.ReferenceIdeal.Read Cert.GraphLayer

/-- x · W1ᵀ at (l, k). -/
theorem v1_at (x0 : (⟨S10000x128, .f32⟩ : BufTy).Contents (Elt Ideal)) (x2 : (⟨S128x128, .f32⟩ : BufTy).Contents (Elt Ideal)) (l : Fin 10000) (k : Fin 128) :
    val_main_v1 (F := Ideal) x0 x2 (ix2 l k) = proj x0 x2 l k := by
  rw [val_main_v1_apply]
  unfold proj
  refine Finset.sum_congr rfl fun q _ => ?_
  rw [val_main_v0_apply]
  have e1 : lidx_main_v1 (ix2 l k) q = ix2 l q := funext fun a => Fin.ext (by match a with | ⟨0, _⟩ => rfl | ⟨1, _⟩ => rfl)
  have e2 : idx_main_v0 (ridx_main_v1 (ix2 l k) q) = ix2 k q := funext fun a => Fin.ext (by match a with | ⟨0, _⟩ => rfl | ⟨1, _⟩ => rfl)
  rw [e1, e2]

/-- A · (x · W1ᵀ) at (r, k). -/
theorem v2_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (r : Fin 10000) (k : Fin 128) :
    val_main_v2 (F := Ideal) x0 x1 x2 (ix2 r k) = nb x0 x1 x2 r k := by
  rw [val_main_v2_apply]
  unfold nb
  refine Finset.sum_congr rfl fun l _ => ?_
  have e1 : lidx_main_v2 (ix2 r k) l = ix2 r l := funext fun a => Fin.ext (by match a with | ⟨0, _⟩ => rfl | ⟨1, _⟩ => rfl)
  have e2 : ridx_main_v2 (ix2 r k) l = ix2 l k := funext fun a => Fin.ext (by match a with | ⟨0, _⟩ => rfl | ⟨1, _⟩ => rfl)
  rw [e1, e2, v1_at]

/-- The joined array's columns 0 … 127 are x + nb. -/
theorem v5_lo (x0 : (⟨S10000x128, .f32⟩ : BufTy).Contents (Elt Ideal)) (x1 : (⟨S10000x10000, .f32⟩ : BufTy).Contents (Elt Ideal)) (x2 : (⟨S128x128, .f32⟩ : BufTy).Contents (Elt Ideal)) (r : Fin 10000) (k : Fin 128) :
    val_main_v5 (F := Ideal) x0 x1 x2 (ix2 r (lo k)) = x0 (ix2 r k) + nb x0 x1 x2 r k := by
  unfold val_main_v5
  refine (concatenate_pair_apply_left (t := S10000x256) (s₁ := S10000x128) (s₂ := S10000x128) 1 (val_main_v3 (F := Ideal) x0 x1 x2) (val_main_v4 (F := Ideal) x0 x1 x2)
    concatenates_S10000x128_S10000x128_S10000x256_d1 (ix2 r (lo k)) rfl (ix2 r k)
    (fun b => by match b with | ⟨0, _⟩ => rfl | ⟨1, _⟩ => rfl)).trans ?_
  rw [val_main_v3_apply, v2_at]
  rfl

/-- Its columns 128 … 255 are x · nb. -/
theorem v5_hi (x0 : (⟨S10000x128, .f32⟩ : BufTy).Contents (Elt Ideal)) (x1 : (⟨S10000x10000, .f32⟩ : BufTy).Contents (Elt Ideal)) (x2 : (⟨S128x128, .f32⟩ : BufTy).Contents (Elt Ideal)) (r : Fin 10000) (k : Fin 128) :
    val_main_v5 (F := Ideal) x0 x1 x2 (ix2 r (hi k)) = x0 (ix2 r k) * nb x0 x1 x2 r k := by
  unfold val_main_v5
  refine (concatenate_pair_apply_right (t := S10000x256) (s₁ := S10000x128) (s₂ := S10000x128) 1 (val_main_v3 (F := Ideal) x0 x1 x2) (val_main_v4 (F := Ideal) x0 x1 x2)
    concatenates_S10000x128_S10000x128_S10000x256_d1 (ix2 r (hi k)) rfl rfl (ix2 r k)
    (fun b hb => by
      match b, hb with
      | ⟨0, _⟩, _ => rfl
      | ⟨1, _⟩, hb => exact absurd rfl hb)
    (by show k.val + 128 = 128 + k.val; omega)).trans ?_
  rw [val_main_v4_apply, v2_at]
  rfl

/-- The transposed W2 at (k, j) is W2 at (j, k). -/
theorem v6_at (x3 : (⟨S128x256, .f32⟩ : BufTy).Contents (Elt Ideal)) (k : Fin 256) (j : Fin 128) : val_main_v6 (F := Ideal) x3 (ix2 k j) = x3 (ix2 j k) := by
  rw [val_main_v6_apply]
  exact congrArg x3 (funext fun a => Fin.ext (by match a with | ⟨0, _⟩ => rfl | ⟨1, _⟩ => rfl))

/-- The second layer before the rectifier: the sum over 256 columns is the two sums over 128. -/
theorem v7_at (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128x256, .f32⟩ : BufTy).Contents (Elt Ideal)) (r : Fin 10000) (j : Fin 128) :
    val_main_v7 (F := Ideal) x0 x1 x2 x3 (ix2 r j)
      = pre2 x3 (fun k => x0 (ix2 r k)) (fun k => nb x0 x1 x2 r k) j := by
  rw [val_main_v7_apply]
  have e : ∀ k : Fin 256, val_main_v5 (F := Ideal) x0 x1 x2 (lidx_main_v7 (ix2 r j) k) * val_main_v6 (F := Ideal) x3 (ridx_main_v7 (ix2 r j) k)
      = val_main_v5 (F := Ideal) x0 x1 x2 (ix2 r k) * x3 (ix2 j k) := fun k => by
    have e1 : lidx_main_v7 (ix2 r j) k = ix2 r k := funext fun a => Fin.ext (by match a with | ⟨0, _⟩ => rfl | ⟨1, _⟩ => rfl)
    have e2 : ridx_main_v7 (ix2 r j) k = ix2 k j := funext fun a => Fin.ext (by match a with | ⟨0, _⟩ => rfl | ⟨1, _⟩ => rfl)
    rw [e1, e2, v6_at]
  rw [Finset.sum_congr rfl fun k _ => e k]
  unfold pre2
  have h1 : ∀ k : Fin 128, val_main_v5 (F := Ideal) x0 x1 x2 (ix2 r (Fin.castAdd 128 k : Fin (128 + 128))) * x3 (ix2 j (Fin.castAdd 128 k : Fin (128 + 128)))
      = (x0 (ix2 r k) + nb x0 x1 x2 r k) * x3 (ix2 j (lo k)) := fun k => by
    have : (Fin.castAdd 128 k : Fin (128 + 128)) = lo k := Fin.ext rfl
    rw [this, v5_lo]
  have h2 : ∀ k : Fin 128, val_main_v5 (F := Ideal) x0 x1 x2 (ix2 r (Fin.natAdd 128 k : Fin (128 + 128))) * x3 (ix2 j (Fin.natAdd 128 k : Fin (128 + 128)))
      = (x0 (ix2 r k) * nb x0 x1 x2 r k) * x3 (ix2 j (hi k)) := fun k => by
    have : (Fin.natAdd 128 k : Fin (128 + 128)) = hi k := Fin.ext rfl
    rw [this, v5_hi]
  have hsplit := Fin.sum_univ_add (M := EReal) (a := 128) (b := 128)
    (fun k : Fin (128 + 128) => val_main_v5 (F := Ideal) x0 x1 x2 (ix2 r k) * x3 (ix2 j k))
  beta_reduce at hsplit
  rw [Finset.sum_congr rfl fun k _ => h1 k, Finset.sum_congr rfl fun k _ => h2 k] at hsplit
  exact hsplit

/-- The reference's result is G of its arguments. -/
theorem ref_eq_G (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128x256, .f32⟩ : BufTy).Contents (Elt Ideal)) :
    val_main_v12 (F := Ideal) x0 x1 x2 x3 = G x0 x1 x2 x3 := by
  funext i
  obtain ⟨r, j, rfl⟩ : ∃ (r : Fin 10000) (j : Fin 128), i = ix2 r j := ⟨i 0, i 1, eq_ix2 i⟩
  rw [val_main_v12_apply, val_main_v9_apply, val_main_v11_apply, val_main_v8_apply, val_main_v10_apply,
    val_main_cst_apply, val_main_cst_0_apply, v7_at]
  rfl

end Cert.ReferenceIdeal.RefValue

end
-- ==== Proof.lean ====
/-
  The graph layer: a Pallas kernel against its jnp reference, over the extended reals.

  Both programs compute, from the 10000×128 input x, the 10000×10000 adjacency matrix A, W1 (128×128) and W2 (128×256),
      leaky_relu( [x + A·(x·W1ᵀ), x · (A·(x·W1ᵀ))] · W2ᵀ ).
  The kernel walks 25 blocks of 400 rows; at the first it computes x·W1ᵀ into a scratch buffer that every later
  block reads, it reads each block's adjacency rows through two windows of 200 rows on the one adjacency array, and it
  applies W2's left and right halves to x + nb and x · nb separately and adds the two products. The reference
  concatenates x + nb and x · nb and takes one product with W2ᵀ. The two agree because a sum over 256 columns is
  the sum over the first 128 plus the sum over the last 128; no finiteness of the inputs is used.

  The three programs' frames: each kernel program's run is the launch of its one region (the adjacency array's
  share split between its two windows, the scratch carried from point to point), the reference's is its
  straight line of host operations. The ideal pass rewrote nothing, so the kernel's idealization is its own text.
-/
import proofs.«102523_g18270790877214_cont_8to1_805_7_alg».proof.Defs
import proofs.«102523_g18270790877214_cont_8to1_805_7_alg».proof.Proof.Gen.Kernel
import proofs.«102523_g18270790877214_cont_8to1_805_7_alg».proof.Proof.Gen.KernelIdeal
import proofs.«102523_g18270790877214_cont_8to1_805_7_alg».proof.Proof.Gen.ReferenceIdeal
import proofs.«102523_g18270790877214_cont_8to1_805_7_alg».proof.Proof.Gen.Pre_finite_inputs
import proofs.«102523_g18270790877214_cont_8to1_805_7_alg».proof.Proof.KbLaunch
import proofs.«102523_g18270790877214_cont_8to1_805_7_alg».proof.Proof.KiValue
import proofs.«102523_g18270790877214_cont_8to1_805_7_alg».proof.Proof.RefSide

noncomputable section

namespace Cert.Proof

open Idealize.ShloMosaic Idealize.ShloMosaic.TcCoe Idealize.SL.Sem

/-- The word-level kernel runs and leaves its four argument arrays unchanged. -/
theorem frame_k : Cert.frame_Kernel := fun m ρ _ => Cert.Kernel.Hand.frame m ρ

/-- So does the kernel read over the extended reals. -/
theorem frame_ki : Cert.frame_KernelIdeal := fun m ρ _ => Cert.KernelIdeal.Hand.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- Over the extended reals the kernel's result array and the reference's are the same function G of arguments that
    agree. -/
theorem algebraic : Cert.algebraic_KernelIdeal_ReferenceIdeal := by
  intro m ρ m' ρ' _ hagree
  refine ⟨fun c => Cert.KernelIdeal.Hand.Gc m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_eq_G,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
